-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S4096x4096 : Shape := ⟨2, ![4096, 4096]⟩
abbrev S4096 : Shape := ⟨1, ![4096]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x4096x4096 .f32) (main_arg1 : FVec F S4096x4096 .f32) (main_arg2 : FVec F S4096 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x4096x4096 : Shape := ⟨3, ![8, 4096, 4096]⟩
abbrev S4096x4096 : Shape := ⟨2, ![4096, 4096]⟩
abbrev S4096 : Shape := ⟨1, ![4096]⟩
abbrev S1x4096 : Shape := ⟨2, ![1, 4096]⟩
abbrev S8x64x4096 : Shape := ⟨3, ![8, 64, 4096]⟩
abbrev S64x4096 : Shape := ⟨2, ![64, 4096]⟩
abbrev S1x64x4096 : Shape := ⟨3, ![1, 64, 4096]⟩
abbrev S64 : Shape := ⟨1, ![64]⟩
abbrev S64x1 : Shape := ⟨2, ![64, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .hbm, ⟨5, _⟩ => ⟨S4096x4096, .f32⟩
  | .local _ .vmem, ⟨0, _⟩ => ⟨S8x64x4096, .f32⟩
  | .local _ .vmem, ⟨1, _⟩ => ⟨S8x64x4096, .f32⟩
  | .local _ .vmem, ⟨2, _⟩ => ⟨S64x4096, .f32⟩
  | .local _ .vmem, ⟨3, _⟩ => ⟨S64x4096, .f32⟩
  | .local _ .vmem, ⟨4, _⟩ => ⟨S1x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S1x4096 : S4096.ShapeCasts S1x4096
  inb_S8x64x4096_S1x64x4096_0_0_0 : ∀ a, (![0, 0, 0] : Fin 3 → Nat) a + S1x64x4096.size a ≤ S8x64x4096.size a
  h_S1x64x4096 : 0 < S1x64x4096.numel
  shapeCasts_S1x64x4096_S64x4096 : S1x64x4096.ShapeCasts S64x4096
  inb_S8x64x4096_S1x64x4096_1_0_0 : ∀ a, (![1, 0, 0] : Fin 3 → Nat) a + S1x64x4096.size a ≤ S8x64x4096.size a
  inb_S8x64x4096_S1x64x4096_2_0_0 : ∀ a, (![2, 0, 0] : Fin 3 → Nat) a + S1x64x4096.size a ≤ S8x64x4096.size a
  inb_S8x64x4096_S1x64x4096_3_0_0 : ∀ a, (![3, 0, 0] : Fin 3 → Nat) a + S1x64x4096.size a ≤ S8x64x4096.size a
  inb_S8x64x4096_S1x64x4096_4_0_0 : ∀ a, (![4, 0, 0] : Fin 3 → Nat) a + S1x64x4096.size a ≤ S8x64x4096.size a
  inb_S8x64x4096_S1x64x4096_5_0_0 : ∀ a, (![5, 0, 0] : Fin 3 → Nat) a + S1x64x4096.size a ≤ S8x64x4096.size a
  inb_S8x64x4096_S1x64x4096_6_0_0 : ∀ a, (![6, 0, 0] : Fin 3 → Nat) a + S1x64x4096.size a ≤ S8x64x4096.size a
  inb_S8x64x4096_S1x64x4096_7_0_0 : ∀ a, (![7, 0, 0] : Fin 3 → Nat) a + S1x64x4096.size a ≤ S8x64x4096.size a
  inb_S64x4096_S64x4096_0_0 : ∀ a, (![0, 0] : Fin 2 → Nat) a + S64x4096.size a ≤ S64x4096.size a
  h_S64x4096 : 0 < S64x4096.numel
  reduces_S64x4096_S64 : S64x4096.Reduces [1] S64
  shapeCasts_S64_S64x1 : S64.ShapeCasts S64x1
  broadcasts_S64x1_S64x4096 : S64x1.Broadcasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x4096.size a ≤ S8x4096x4096.size a
  hwx0_0 : ∀ i : grid0.Coords, EltTy.bits .f32 = 32 ∨ (Rect.block (s := S8x4096x4096) S8x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S4096x4096.size a
  hwx0_1 : ∀ i : grid0.Coords, EltTy.bits .f32 = 32 ∨ (Rect.block (s := S4096x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S4096x4096.size a
  hwx0_3 : ∀ i : grid0.Coords, EltTy.bits .f32 = 32 ∨ (Rect.block (s := S4096x4096) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S4096x4096.size a
  hwx0_4 : ∀ i : grid0.Coords, EltTy.bits .f32 = 32 ∨ (Rect.block (s := S4096x4096) S64x4096.size (cc0_transform_4 i) (hinb0_4 i)).WholeWords (EltTy.packing .f32)

variable [Facts₀]

abbrev win0_0 : Pipeline.Window sig grid0 :=
  Pipeline.Window.ofSpec (Memref.whole main_arg0) S8x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x4096 : Shape := ⟨3, ![8, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S8x4096x4096_S4096x4096_d0 : S8x4096x4096.ReducesTo [0] S4096x4096
  h_S_ : 0 < S_.numel
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)

variable [Facts₀]

class Facts : Prop extends Facts₀ where

variable [Facts]
-- ==== Proof.RowNorm.lean ====
/-
  The mathematics of one row, on the extended reals.

  A token's hidden state is the sum of its eight partial activations plus the residual; the normalised output of
  that token is the hidden state scaled by the inverse root of the mean of its squares (plus a small constant)
  and by a learned weight per column. One program writes the mean as the row's sum of squares TIMES 2^-12, the
  other as that sum DIVIDED BY 4096; one adds the eight partial activations left to right, the other starts
  from zero. Neither difference is seen on the extended reals: dividing by a nonzero real is multiplying by
  its inverse (also at the infinities), and addition there is commutative and associative with unit 0.
  Nothing below needs the entries to be finite.
-/
import Idealize.ShloMosaic.PureOps.Ideal
import Idealize.ShloMosaic.PureOps.Ideal.Laws
import Idealize.ShloMosaic.Lib.ValueIdx

noncomputable section

open scoped BigOperators

namespace Cert.RowNorm

open Idealize.ShloMosaic Idealize.ShloMosaic.ValueIdx

/-! ## The three float words the programs spell -/

/-- The word `0x45800000` is the real number 4096 = 2^12. -/
theorem ofBits_4096 : Ideal.ofBits .f32 0x45800000#32 = ((4096 : ℝ) : EReal) := by
  simp [Ideal.ofBits, Ideal.ieee, -EReal.coe_mul]; norm_num

/-- The word `0x39800000` is the real number 1/4096 = 2^-12, exactly. -/
theorem ofBits_inv4096 : Ideal.ofBits .f32 0x39800000#32 = ((1 / 4096 : ℝ) : EReal) := by
  simp [Ideal.ofBits, Ideal.ieee, -EReal.coe_mul]; norm_num

/-- The scale of the mean: 2^-12. -/
abbrev invWidth : EReal := Ideal.ofBits .f32 0x39800000#32
/-- The small constant under the root (the same word in both programs, so never evaluated). -/
abbrev eps : EReal := Ideal.ofBits .f32 0x358637BD#32

/-- Dividing any extended real by 4096 is multiplying it by 2^-12. -/
theorem div_width (x : EReal) : Ideal.div x (Ideal.ofBits .f32 0x45800000#32) = x * invWidth := by
  rw [ofBits_4096]; unfold invWidth; rw [ofBits_inv4096]
  exact Ideal.div_coe (by norm_num) x

/-! ## One entry of the hidden state, one entry of the normalised row -/

/-- The hidden state's entry: the eight partial activations `a k` summed, plus the residual `b`. -/
def hidden (a : Fin 8 → EReal) (b : EReal) : EReal := (∑ k, a k) + b

/-- Eight terms added left to right, then the residual, are the hidden state: stated with each term given by an
    equation, so that it applies to any spelling of the nine terms. -/
theorem hidden_of_chain {x0 x1 x2 x3 x4 x5 x6 x7 y : EReal} (a : Fin 8 → EReal) (b : EReal)
    (h0 : x0 = a 0) (h1 : x1 = a 1) (h2 : x2 = a 2) (h3 : x3 = a 3) (h4 : x4 = a 4) (h5 : x5 = a 5)
    (h6 : x6 = a 6) (h7 : x7 = a 7) (hb : y = b) :
    x0 + x1 + x2 + x3 + x4 + x5 + x6 + x7 + y = hidden a b := by
  subst h0 h1 h2 h3 h4 h5 h6 h7 hb
  unfold hidden; rw [Fin.sum_univ_eight]

/-- The same sum started from zero. -/
theorem hidden_of_zero (a : Fin 8 → EReal) (b : EReal) : (0 + ∑ k, a k) + b = hidden a b := by
  unfold hidden; rw [zero_add]

/-- Entry `q` of the normalised row: the row `h` of hidden states scaled by
    `rsqrt ((∑ j, h j ^ 2) · 2^-12 + eps)` and by the weight of column `q`. -/
def rowNorm (h w : Fin 4096 → EReal) (q : Fin 4096) : EReal :=
  h q * Ideal.rsqrt ((∑ j, h j * h j) * invWidth + eps) * w q

/-- The normalised row depends on the row and the weights entry by entry. -/
theorem rowNorm_congr {h h' w w' : Fin 4096 → EReal} {q q' : Fin 4096} (hh : ∀ j, h j = h' j) (hw : ∀ j, w j = w' j)
    (hq : q = q') : rowNorm h w q = rowNorm h' w' q' := by
  subst hq
  rw [show h = h' from funext hh, show w = w' from funext hw]

/-- The form with the mean taken by a division and the sum of squares started from zero. -/
theorem rowNorm_of_div (h w : Fin 4096 → EReal) (q : Fin 4096) :
    h q * Ideal.rsqrt (Ideal.div (0 + ∑ j, h j * h j) (Ideal.ofBits .f32 0x45800000#32) + eps) * w q = rowNorm h w q := by
  unfold rowNorm; rw [div_width, zero_add]

/-! ## The two result arrays as functions of the three argument arrays -/

/-- The hidden-state array: entry `(r, q)` from the eight slabs of `A` and the residual `B`. -/
def hiddenAt (A : (⟨3, ![8, 4096, 4096]⟩ : Shape).Idx → EReal) (B : (⟨2, ![4096, 4096]⟩ : Shape).Idx → EReal)
    (r q : Fin 4096) : EReal :=
  hidden (fun k => A (ix3 k r q)) (B (ix2 r q))

/-- The normalised array: entry `(r, q)` is entry `q` of the normalised row `r`. -/
def normAt (A : (⟨3, ![8, 4096, 4096]⟩ : Shape).Idx → EReal) (B : (⟨2, ![4096, 4096]⟩ : Shape).Idx → EReal)
    (W : (⟨1, ![4096]⟩ : Shape).Idx → EReal) (r q : Fin 4096) : EReal :=
  rowNorm (fun j => hiddenAt A B r j) (fun j => W (ix1 j)) q

/-- The hidden-state array, whole. -/
def hiddenArr (A : (⟨3, ![8, 4096, 4096]⟩ : Shape).Idx → EReal) (B : (⟨2, ![4096, 4096]⟩ : Shape).Idx → EReal) :
    (⟨2, ![4096, 4096]⟩ : Shape).Idx → EReal := fun i => hiddenAt A B (i 0) (i 1)

/-- The normalised array, whole. -/
def normArr (A : (⟨3, ![8, 4096, 4096]⟩ : Shape).Idx → EReal) (B : (⟨2, ![4096, 4096]⟩ : Shape).Idx → EReal)
    (W : (⟨1, ![4096]⟩ : Shape).Idx → EReal) : (⟨2, ![4096, 4096]⟩ : Shape).Idx → EReal :=
  fun i => normAt A B W (i 0) (i 1)

end Cert.RowNorm

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.KernelTile.lean ====
/-
  What one grid point computes, entry by entry, on the extended reals.

  A grid point holds a slab `X0` of 8 x 64 x 4096 partial activations, 64 rows `X1` of the residual and the one
  row `X2` of weights. It leaves two blocks of 64 x 4096: the hidden states (the eight slabs added, plus the
  residual) and the normalised rows. Entry `(p, q)` of the first is a function of column `q` of row `p` only;
  entry `(p, q)` of the second needs the whole of row `p`, through the row's sum of squares.
-/
import proofs.«160225_j47562467836271_2_alg».proof.Proof.Gen.KernelIdeal.Value
import proofs.«160225_j47562467836271_2_alg».proof.Proof.RowNorm
import proofs.«160225_j47562467836271_2_alg».proof.Proof.LibKeepdims
import Idealize.ShloMosaic.Lib.ValueIdx

noncomputable section

open scoped BigOperators

namespace Cert.KernelIdeal.Tile

open Cert.KernelIdeal Cert.KernelIdeal.Gen Cert.KernelIdeal.Value Idealize.ShloMosaic Idealize.ShloMosaic.ValueIdx
open Cert.RowNorm

variable (X0 : Vec Ideal S8x64x4096 .f32) (X1 : Vec Ideal S64x4096 .f32) (X2 : Vec Ideal S1x4096 .f32)

/-! ## The three kinds of load, read at an entry -/

/-- Slab `k` of the point's block, loaded as a 1 x 64 x 4096 vector and read at `(0, p, q)`, is the block's
    entry `(k, p, q)`: the load's rectangle starts at `(k, 0, 0)` and has unit strides. -/
theorem slab_apply (k : Fin 8) (inb : ∀ a, (![k.val, 0, 0] : Fin 3 → Nat) a + S1x64x4096.size a ≤ S8x64x4096.size a)
    (z : S1x64x4096.Idx) (p : Fin 64) (q : Fin 4096) (h1 : (z 1).val = p.val) (h2 : (z 2).val = q.val) :
    View.ld X0 (Rect.unit (s := S8x64x4096) ![k.val, 0, 0] S1x64x4096.size inb) z = X0 (ix3 k p q) := by
  show X0 _ = X0 _
  congr 1
  funext a; apply Fin.ext
  have h0 : (z 0).val < 1 := (z 0).isLt
  match a with
  | ⟨0, _⟩ => show k.val + 1 * (z 0).val = k.val; omega
  | ⟨1, _⟩ => show 0 + 1 * (z 1).val = p.val; omega
  | ⟨2, _⟩ => show 0 + 1 * (z 2).val = q.val; omega

/-- The whole 64 x 4096 block loaded and read at an entry is that entry. -/
theorem rows_apply (z : S64x4096.Idx) (p : Fin 64) (q : Fin 4096) (h0 : (z 0).val = p.val) (h1 : (z 1).val = q.val) :
    View.ld X1 r0_8 z = X1 (ix2 p q) := by
  show X1 _ = X1 _
  congr 1
  funext a; apply Fin.ext
  match a with
  | ⟨0, _⟩ => show 0 + 1 * (z 0).val = p.val; omega
  | ⟨1, _⟩ => show 0 + 1 * (z 1).val = q.val; omega

/-- The one row of weights loaded and read at `(0, q)`. -/
theorem weights_apply (z : S1x4096.Idx) (q : Fin 4096) (h1 : (z 1).val = q.val) :
    View.ld X2 r0_9 z = X2 (ix2 (0 : Fin 1) q) := by
  show X2 _ = X2 _
  congr 1
  funext a; apply Fin.ext
  have h0 : (z 0).val < 1 := (z 0).isLt
  match a with
  | ⟨0, _⟩ => show 0 + 1 * (z 0).val = 0; omega
  | ⟨1, _⟩ => show 0 + 1 * (z 1).val = q.val; omega

/-! ## The hidden-state block -/

/-- The block the pieces leave for the hidden states, at an entry in row `p` and column `q`: the eight slabs'
    entries `(k, p, q)` summed, plus the residual's `(p, q)`. -/
theorem hidden_at (y : S64x4096.Idx) (p : Fin 64) (q : Fin 4096) (hp : (y 0).val = p.val) (hq : (y 1).val = q.val) :
    E4 (F := Ideal) (View.ld X0 r0_0) (View.ld X0 r0_1) (View.ld X0 r0_2) (View.ld X0 r0_3) (View.ld X0 r0_4)
        (View.ld X0 r0_5) (View.ld X0 r0_6) (View.ld X0 r0_7) (View.ld X1 r0_8) y
      = hidden (fun k => X0 (ix3 k p q)) (X1 (ix2 p q)) :=
  hidden_of_chain (fun k => X0 (ix3 k p q)) (X1 (ix2 p q))
    (slab_apply X0 0 _ _ p q hp hq) (slab_apply X0 1 _ _ p q hp hq) (slab_apply X0 2 _ _ p q hp hq)
    (slab_apply X0 3 _ _ p q hp hq) (slab_apply X0 4 _ _ p q hp hq) (slab_apply X0 5 _ _ p q hp hq)
    (slab_apply X0 6 _ _ p q hp hq) (slab_apply X0 7 _ _ p q hp hq) (rows_apply X1 _ p q hp hq)

/-- THE HIDDEN-STATE BLOCK at `(p, q)`. -/
theorem hidden_apply (p : Fin 64) (q : Fin 4096) :
    out0_4 X0 X1 X2 (ix2 p q) = hidden (fun k => X0 (ix3 k p q)) (X1 (ix2 p q)) := by
  unfold out0_4
  rw [canon4_eq]
  exact hidden_at X0 X1 (ix2 p q) p q rfl rfl

/-! ## The normalised block -/

/-- The vector of hidden states the body squares and sums along its rows, read at `(p, j)`. -/
theorem hiddenVec_apply (p : Fin 64) (j : Fin 4096) :
    k0_pay2 (F := Ideal) (View.ld X0 r0_0) (View.ld X0 r0_1) (View.ld X0 r0_2) (View.ld X0 r0_3) (View.ld X0 r0_4)
        (View.ld X0 r0_5) (View.ld X0 r0_6) (View.ld X0 r0_7) (View.ld X1 r0_8) (ix2 p j)
      = hidden (fun k => X0 (ix3 k p j)) (X1 (ix2 p j)) :=
  (piece4_0 _ _ _ _ _ _ _ _ _ (ix2 p j)).trans
    (hidden_at X0 X1 _ p j (by show 0 + 1 * p.val = p.val; omega) (by show 0 + 1 * j.val = j.val; omega))

/-- THE NORMALISED BLOCK at `(p, q)`: entry `q` of the normalised row built from row `p` of the hidden states —
    the hidden state at `(p, q)`, times the inverse root of (the row's sum of squares times 2^-12, plus the small
    constant), times the weight of column `q`. The row's sum of squares is the lane reduction read at row `p`. -/
theorem norm_apply (p : Fin 64) (q : Fin 4096) :
    out0_3 X0 X1 X2 (ix2 p q)
      = rowNorm (fun j => hidden (fun k => X0 (ix3 k p j)) (X1 (ix2 p j))) (fun j => X2 (ix2 (0 : Fin 1) j)) q := by
  unfold out0_3
  rw [canon3_eq]
  unfold rowNorm
  show _ * Ideal.rsqrt (_ * invWidth + eps) * _ = _
  refine congrArg₂ (· * ·) (congrArg₂ (· * ·) ?_ (congrArg Ideal.rsqrt (congrArg (· + eps) (congrArg (· * invWidth) ?_)))) ?_
  · exact hidden_of_chain (fun k => X0 (ix3 k p q)) (X1 (ix2 p q))
      (slab_apply X0 0 _ _ p q rfl rfl) (slab_apply X0 1 _ _ p q rfl rfl) (slab_apply X0 2 _ _ p q rfl rfl)
      (slab_apply X0 3 _ _ p q rfl rfl) (slab_apply X0 4 _ _ p q rfl rfl) (slab_apply X0 5 _ _ p q rfl rfl)
      (slab_apply X0 6 _ _ p q rfl rfl) (slab_apply X0 7 _ _ p q rfl rfl) (rows_apply X1 _ p q rfl rfl)
  · have e : ix3_9 (ix2 p q) = ix1 p := by funext a; match a with | ⟨0, _⟩ => rfl
    refine (congrArg _ e).trans ?_
    refine (Cert.LibKeepdims.rowSum_apply _ reduces_S64x4096_S64 (.inl rfl) rfl p).trans
      (Finset.sum_congr rfl fun j _ => ?_)
    exact congrArg₂ (· * ·) (hiddenVec_apply X0 X1 p j) (hiddenVec_apply X0 X1 p j)
  · exact weights_apply X2 _ q rfl

end Cert.KernelIdeal.Tile

end
-- ==== Proof.KernelArray.lean ====
/-
  From blocks to arrays.

  The grid has 64 points; point `t` works on rows `64 t … 64 t + 63`. Its slab of partial activations is those
  rows of all eight slabs of the first argument, its residual rows are those rows of the second argument, and
  the weights' row is the same at every point: the third argument laid out as a 1 x 4096 array before the grid
  starts. What point `t` writes back to each result is therefore rows `64 t … 64 t + 63` of ONE whole-array
  function of the three arguments, and the 64 row blocks tile the 4096 rows.
-/
import proofs.«160225_j47562467836271_2_alg».proof.Proof.KernelTile
import Idealize.ShloMosaic.Lib.Pipeline.Value
import Idealize.ShloMosaic.Lib.ValueLayout
import Idealize.ShloMosaic.Lib.StableHlo.Run

noncomputable section

open scoped BigOperators

namespace Cert.KernelIdeal.Arrays

open Cert.KernelIdeal Cert.KernelIdeal.Gen Cert.KernelIdeal.Value Idealize.ShloMosaic Idealize.ShloMosaic.TcCoe
open Idealize.SL.Sem Idealize.ShloMosaic.ValueIdx Cert.RowNorm
open Idealize.ShloMosaic.Pipeline (Dat)

variable (m : (ℓ : Loc nD τ sig) → Buf (Elt Ideal) ℓ) (ρ : Dev nD → PrngReg)

/-! ## Where each window's block sits -/

/-- The block index of every window at every grid point, decided over the 64 points: the two inputs and the two
    outputs move down the rows with the point, on the row axis only; the weights' window stays put. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The weights' array as the grid finds it -/

/-- Before the grid starts the 4096 weights are laid out as one row of a 1 x 4096 array. -/
theorem weightsArr_eq (c : Dev nD) :
    (V m c main_v0 : S1x4096.Idx → EReal)
      = shapeCast S1x4096 (m ((c : Thread nD τ).loc main_arg2)) shapeCasts_S4096_S1x4096 := by
  dsimp only [Gen.V, Gen.hostOps0]
  after_results
  rfl

/-- So its entry `(0, q)` is weight `q`. -/
theorem weightsArr_apply (c : Dev nD) (q : Fin 4096) :
    (V m c main_v0 : S1x4096.Idx → EReal) (ix2 (0 : Fin 1) q)
      = (m ((c : Thread nD τ).loc main_arg2) : S4096.Idx → EReal) (ix1 q) := by
  rw [weightsArr_eq]
  exact shapeCast_a_1a_apply _ _ 0 q

/-! ## Each input block as rows of its array -/

/-- Entry `(k, p, q)` of point `t`'s slab is entry `(k, 64 t + p, q)` of the first argument. -/
theorem slab_block (c : Dev nD) (t : Fin cfg0.N) (k : Fin 8) (p : Fin 64) (q r : Fin 4096) (hr : r.val = t.val * 64 + p.val) :
    (iblk m c 0 t : Vec Ideal S8x64x4096 .f32) (ix3 k p q)
      = (m ((c : Thread nD τ).loc main_arg0) : S8x4096x4096.Idx → EReal) (ix3 k r q) := by
  obtain ⟨e0, e1, e2, -⟩ := idx_facts t
  rw [← V_main_arg0 m c]
  unfold iblk
  rw [View.read_apply]
  show V m c main_arg0 _ = V m c main_arg0 _
  congr 1
  funext a; apply Fin.ext
  match a with
  | ⟨0, _⟩ => show win0_0.index t (0 : Fin 3) * 8 + 1 * k.val = k.val; rw [e0]; omega
  | ⟨1, _⟩ => show win0_0.index t (1 : Fin 3) * 64 + 1 * p.val = r.val; rw [e1, hr]; omega
  | ⟨2, _⟩ => show win0_0.index t (2 : Fin 3) * 4096 + 1 * q.val = q.val; rw [e2]; omega

/-- Entry `(p, q)` of point `t`'s residual rows is entry `(64 t + p, q)` of the second argument. -/
theorem rows_block (c : Dev nD) (t : Fin cfg0.N) (p : Fin 64) (q r : Fin 4096) (hr : r.val = t.val * 64 + p.val) :
    (iblk m c 1 t : Vec Ideal S64x4096 .f32) (ix2 p q)
      = (m ((c : Thread nD τ).loc main_arg1) : S4096x4096.Idx → EReal) (ix2 r q) := by
  obtain ⟨-, -, -, e0, e1, -⟩ := idx_facts t
  rw [← V_main_arg1 m c]
  unfold iblk
  rw [View.read_apply]
  show V m c main_arg1 _ = V m c main_arg1 _
  congr 1
  funext a; apply Fin.ext
  match a with
  | ⟨0, _⟩ => show win0_1.index t (0 : Fin 2) * 64 + 1 * p.val = r.val; rw [e0, hr]; omega
  | ⟨1, _⟩ => show win0_1.index t (1 : Fin 2) * 4096 + 1 * q.val = q.val; rw [e1]; omega

/-- Entry `(0, q)` of the weights' block, at every point, is weight `q`. -/
theorem weights_block (c : Dev nD) (t : Fin cfg0.N) (q : Fin 4096) :
    (iblk m c 2 t : Vec Ideal S1x4096 .f32) (ix2 (0 : Fin 1) q)
      = (m ((c : Thread nD τ).loc main_arg2) : S4096.Idx → EReal) (ix1 q) := by
  obtain ⟨-, -, -, -, -, e0, e1, -⟩ := idx_facts t
  rw [← weightsArr_apply m c q]
  unfold iblk
  rw [View.read_apply]
  show V m c main_v0 _ = V m c main_v0 _
  congr 1
  funext a; apply Fin.ext
  match a with
  | ⟨0, _⟩ => show win0_2.index t (0 : Fin 2) * 1 + 1 * 0 = 0; rw [e0]
  | ⟨1, _⟩ => show win0_2.index t (1 : Fin 2) * 4096 + 1 * q.val = q.val; rw [e1]; omega

/-! ## The two results as whole-array functions of the arguments -/

/-- The normalised array of the three arguments on core `c`. -/
def normG (c : Dev nD) : S4096x4096.Idx → EReal :=
  normArr (m ((c : Thread nD τ).loc main_arg0)) (m ((c : Thread nD τ).loc main_arg1)) (m ((c : Thread nD τ).loc main_arg2))

/-- The hidden-state array of the first two arguments on core `c`. -/
def hiddenG (c : Dev nD) : S4096x4096.Idx → EReal :=
  hiddenArr (m ((c : Thread nD τ).loc main_arg0)) (m ((c : Thread nD τ).loc main_arg1))

/-- Entry `(p, q)` of the normalised result's block at point `t` sits at `(64 t + p, q)` of its array. -/
theorem norm_emb (t : Fin cfg0.N) (p : Fin 64) (q r : Fin 4096) (hr : r.val = t.val * 64 + p.val) :
    (((cfg0.win 3).blk t).view.emb (ix2 p q) : S4096x4096.Idx) = ix2 r q := by
  obtain ⟨-, -, -, -, -, -, -, e0, e1, -⟩ := idx_facts t
  funext a; apply Fin.ext
  match a with
  | ⟨0, _⟩ => show win0_3.index t (0 : Fin 2) * 64 + 1 * p.val = r.val; rw [e0, hr]; omega
  | ⟨1, _⟩ => show win0_3.index t (1 : Fin 2) * 4096 + 1 * q.val = q.val; rw [e1]; omega

/-- The hidden-state result has the same window: its block's entry `(p, q)` sits at `(64 t + p, q)` too. -/
theorem hidden_emb (t : Fin cfg0.N) (p : Fin 64) (q r : Fin 4096) (hr : r.val = t.val * 64 + p.val) :
    (((cfg0.win 4).blk t).view.emb (ix2 p q) : S4096x4096.Idx) = ix2 r q := by
  obtain ⟨-, -, -, -, -, -, -, -, -, e0, e1⟩ := idx_facts t
  funext a; apply Fin.ext
  match a with
  | ⟨0, _⟩ => show win0_4.index t (0 : Fin 2) * 64 + 1 * p.val = r.val; rw [e0, hr]; omega
  | ⟨1, _⟩ => show win0_4.index t (1 : Fin 2) * 4096 + 1 * q.val = q.val; rw [e1]; omega

/-- Row `64 t + p` is a row of the array. -/
theorem row_lt (t : Fin cfg0.N) (p : Fin 64) : t.val * 64 + p.val < 4096 := by
  have hN : grid0.N = 64 := N_0
  have ht : t.val < grid0.N := t.isLt
  have hp := p.isLt
  omega

/-- WHAT POINT `t` WRITES BACK to the hidden-state result is rows `64 t … 64 t + 63` of `hiddenG`. -/
theorem flushed_hidden (c : Dev nD) (t : Fin cfg0.N) :
    (dats m 0 c).flushed 4 t = ((cfg0.win 4).blk t).view.read (Elt Ideal) (hiddenG m c) := by
  rw [flushed4]
  funext j
  obtain ⟨p, q, rfl⟩ : ∃ (p : Fin 64) (q : Fin 4096), j = ix2 p q := ⟨j 0, j 1, eq_ix2 j⟩
  show out0_4 (iblk m c 0 t) (iblk m c 1 t) (iblk m c 2 t) (ix2 p q) = hiddenG m c (((cfg0.win 4).blk t).view.emb (ix2 p q))
  rw [hidden_emb t p q ⟨t.val * 64 + p.val, row_lt t p⟩ rfl]
  refine (Tile.hidden_apply _ _ _ p q).trans ?_
  show _ = hidden _ _
  rw [rows_block m c t p q ⟨t.val * 64 + p.val, row_lt t p⟩ rfl]
  exact congrArg (fun a => hidden a _) (funext fun k => slab_block m c t k p q ⟨t.val * 64 + p.val, row_lt t p⟩ rfl)

/-- WHAT POINT `t` WRITES BACK to the normalised result is rows `64 t … 64 t + 63` of `normG`. -/
theorem flushed_norm (c : Dev nD) (t : Fin cfg0.N) :
    (dats m 0 c).flushed 3 t = ((cfg0.win 3).blk t).view.read (Elt Ideal) (normG m c) := by
  rw [flushed3]
  funext j
  obtain ⟨p, q, rfl⟩ : ∃ (p : Fin 64) (q : Fin 4096), j = ix2 p q := ⟨j 0, j 1, eq_ix2 j⟩
  show out0_3 (iblk m c 0 t) (iblk m c 1 t) (iblk m c 2 t) (ix2 p q) = normG m c (((cfg0.win 3).blk t).view.emb (ix2 p q))
  rw [norm_emb t p q ⟨t.val * 64 + p.val, row_lt t p⟩ rfl]
  refine (Tile.norm_apply _ _ _ p q).trans ?_
  unfold normG normArr normAt
  refine rowNorm_congr (fun j => ?_) (fun j => weights_block m c t j) rfl
  unfold hiddenAt
  rw [rows_block m c t p j ⟨t.val * 64 + p.val, row_lt t p⟩ rfl]
  exact congrArg (fun a => hidden a _) (funext fun k => slab_block m c t k p j ⟨t.val * 64 + p.val, row_lt t p⟩ rfl)

/-! ## The 64 row blocks tile the 4096 rows -/

/-- Every entry of the normalised result is in the block of the point its row falls in, `t = r / 64`. -/
theorem cover_norm (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : grid0.N = 64 := N_0
  have ht : (i 0).val / 64 < grid0.N := by omega
  obtain ⟨-, -, -, -, -, -, -, e0, e1, -⟩ := idx_facts ⟨(i 0).val / 64, ht⟩
  refine ⟨⟨(i 0).val / 64, ht⟩, flush0_3 _, ?_⟩
  show i ∈ ((View.whole main_v1_0).slice (win0_3.rect ⟨(i 0).val / 64, ht⟩)).set
  rw [View.set_slice_whole, Rect.mem_set_unit]
  intro a
  match a with
  | ⟨0, _⟩ =>
    show win0_3.index ⟨(i 0).val / 64, ht⟩ (0 : Fin 2) * 64 ≤ (i 0).val
      ∧ (i 0).val < win0_3.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_3.index ⟨(i 0).val / 64, ht⟩ (1 : Fin 2) * 4096 ≤ (i 1).val
      ∧ (i 1).val < win0_3.index ⟨(i 0).val / 64, ht⟩ (1 : Fin 2) * 4096 + 4096
    rw [e1]; omega

/-- The same for the hidden-state result. -/
theorem cover_hidden (i : S4096x4096.Idx) :
    ∃ t : Fin cfg0.N, (cfg0.win 4).flush t = true ∧ i ∈ ((cfg0.win 4).blk t).view.set := by
  have h0 : (i 0).val < 4096 := (i 0).isLt
  have h1 : (i 1).val < 4096 := (i 1).isLt
  have hN : grid0.N = 64 := N_0
  have ht : (i 0).val / 64 < grid0.N := by omega
  obtain ⟨-, -, -, -, -, -, -, -, -, e0, e1⟩ := idx_facts ⟨(i 0).val / 64, ht⟩
  refine ⟨⟨(i 0).val / 64, ht⟩, flush0_4 _, ?_⟩
  show i ∈ ((View.whole main_v1_1).slice (win0_4.rect ⟨(i 0).val / 64, ht⟩)).set
  rw [View.set_slice_whole, Rect.mem_set_unit]
  intro a
  match a with
  | ⟨0, _⟩ =>
    show win0_4.index ⟨(i 0).val / 64, ht⟩ (0 : Fin 2) * 64 ≤ (i 0).val
      ∧ (i 0).val < win0_4.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_4.index ⟨(i 0).val / 64, ht⟩ (1 : Fin 2) * 4096 ≤ (i 1).val
      ∧ (i 1).val < win0_4.index ⟨(i 0).val / 64, ht⟩ (1 : Fin 2) * 4096 + 4096
    rw [e1]; omega

/-! ## The arrays after the run, and the run -/

/-- The normalised result after the run is `normG`. -/
theorem final_norm (c : Dev nD) : (dats m 0 c).arrAt 3 cfg0.N = normG m c :=
  (dats m 0 c).arrAt_eq_of_cover 3 (normG m c) (fun t _ => flushed_norm m c t) cover_norm

/-- The hidden-state result after the run is `hiddenG`. -/
theorem final_hidden (c : Dev nD) : (dats m 0 c).arrAt 4 cfg0.N = hiddenG m c :=
  (dats m 0 c).arrAt_eq_of_cover 4 (hiddenG m c) (fun t _ => flushed_hidden m c t) cover_hidden

/-- Every weakly fair execution of the program terminates with the two results at `normG` and `hiddenG` of the
    arguments, and the arguments unchanged. -/
theorem run : θ_run defs (onTc (τ := τ) (main (F := Ideal))) ⟨m, fun _ => 0, ρ⟩ fun r => ∀ c : Dev nD,
      r.2.mem ((c : Thread nD τ).loc main_v1_0) = normG m c
      ∧ r.2.mem ((c : Thread nD τ).loc main_v1_1) = hiddenG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_norm m c), (h c).2.1.trans (final_hidden m c), (h c).2.2⟩)
    (Value.run_blocks m ρ)

end Cert.KernelIdeal.Arrays

end
-- ==== Proof.RefValue.lean ====
/-
  The reference, entry by entry.

  The reference sums the eight slabs from zero, adds the residual, squares, sums each row from zero, divides by
  4096, adds the small constant, takes the inverse root, and multiplies the hidden state by it and by the
  weights spread over the rows. Read at entry `(r, q)` that is the hidden state of the row's entry and the
  normalised row's entry `q`, in the form with a division; dividing by 4096 is multiplying by 2^-12.
-/
import proofs.«160225_j47562467836271_2_alg».proof.Proof.Gen.ReferenceIdeal.Read
import proofs.«160225_j47562467836271_2_alg».proof.Proof.RowNorm
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.RowNorm

variable (x0 : S8x4096x4096.Idx → EReal) (x1 : S4096x4096.Idx → EReal) (x2 : S4096.Idx → EReal)

/-- The hidden state at `(r, q)`: the sum over the leading axis started from zero, plus the residual. -/
theorem hidden_stage (r q : Fin 4096) : val_main_v1 (F := Ideal) x0 x1 (ix2 r q) = hiddenAt x0 x1 r q := by
  have e : ∀ k : Fin 8, idx_main_v0 (ix2 r q) k = ix3 k r q := fun k => funext fun a => by
    match a with
    | ⟨0, _⟩ => rfl
    | ⟨1, _⟩ => rfl
    | ⟨2, _⟩ => rfl
  rw [val_main_v1_apply, val_main_v0_apply, val_main_cst_apply]
  simp only [e, Ideal.ofBits_def, Ideal.ofBits_zero_f32, Ideal.addf_def]
  exact hidden_of_zero _ _

/-- The normalised output at `(r, q)`: every layout step reads row `r` (for the scale) or column `q` (for the
    weight), and the scale is the inverse root of the row's sum of squares over 4096 plus the small constant. -/
theorem norm_stage (r q : Fin 4096) : val_main_v14 (F := Ideal) x0 x1 x2 (ix2 r q) = normAt x0 x1 x2 r q := by
  have e3 : ∀ k : Fin 4096, idx_main_v3 (idx_main_v4 (idx_main_v10 (ix2 r q))) k = ix2 r k := fun k => funext fun a => by
    match a with
    | ⟨0, _⟩ => rfl
    | ⟨1, _⟩ => rfl
  have e12 : idx_main_v12 (idx_main_v13 (ix2 r q)) = ix1 q := funext fun a => by
    match a with
    | ⟨0, _⟩ => rfl
  rw [val_main_v14_apply, val_main_v11_apply, val_main_v10_apply, val_main_v9_apply, val_main_v8_apply,
    val_main_v6_apply, val_main_v4_apply, val_main_v3_apply, val_main_v5_apply, val_main_v7_apply,
    val_main_v13_apply, val_main_v12_apply, val_main_cst_0_apply, val_main_cst_1_apply, val_main_cst_2_apply, e12]
  simp only [val_main_v2_apply, e3, hidden_stage, Ideal.ofBits_def, Ideal.ofBits_zero_f32, Ideal.addf_def,
    Ideal.mulf_def, Ideal.hostDivf_def, Ideal.hostUnary_rsqrt_def]
  exact rowNorm_of_div (fun j => hiddenAt x0 x1 r j) (fun j => x2 (ix1 j)) q

/-- The reference's second result, whole: the hidden-state array. -/
theorem hidden_eq : val_main_v1 (F := Ideal) x0 x1 = hiddenArr x0 x1 := by
  funext i
  obtain ⟨r, q, rfl⟩ : ∃ (r q : Fin 4096), i = ix2 r q := ⟨i 0, i 1, eq_ix2 i⟩
  exact hidden_stage x0 x1 r q

/-- The reference's first result, whole: the normalised array. -/
theorem norm_eq : val_main_v14 (F := Ideal) x0 x1 x2 = normArr x0 x1 x2 := by
  funext i
  obtain ⟨r, q, rfl⟩ : ∃ (r q : Fin 4096), i = ix2 r q := ⟨i 0, i 1, eq_ix2 i⟩
  exact norm_stage x0 x1 x2 r q

end Cert.ReferenceIdeal.RefValue

end
-- ==== Proof.lean ====
/-
  A fused all-reduce, residual add and RMS normalisation, against its plain reference, on the extended reals.

  Both programs take eight slabs of partial activations `A` (8 x 4096 x 4096), a residual `B` (4096 x 4096) and a
  weight per column `W` (4096), and return two 4096 x 4096 arrays:

    hidden (r, q) = (∑ k, A (k, r, q)) + B (r, q)
    norm   (r, q) = hidden (r, q) · rsqrt ((∑ j, hidden (r, j)²) · 2^-12 + eps) · W (q).

  The kernel walks the rows in 64 blocks of 64, adds the eight slabs left to right and scales the row's sum of
  squares by the exact float 2^-12; the reference sums from zero over whole arrays and divides by 4096. On the
  extended reals addition is a commutative monoid and dividing by 4096 is multiplying by 2^-12 (also at the
  infinities), so the two agree entry by entry with no appeal to the inputs being finite.

  Proof/RowNorm.lean has the row's mathematics, Proof/KernelTile.lean what one grid point leaves in its two
  blocks, Proof/KernelArray.lean the two result arrays after all 64 points, Proof/RefValue.lean the reference's
  two results; here the five claims are put together.
-/
import proofs.«160225_j47562467836271_2_alg».proof.Defs
import proofs.«160225_j47562467836271_2_alg».proof.Proof.Gen.Kernel
import proofs.«160225_j47562467836271_2_alg».proof.Proof.Gen.Kernel.Skeleton
import proofs.«160225_j47562467836271_2_alg».proof.Proof.Gen.Kernel.Launch
import proofs.«160225_j47562467836271_2_alg».proof.Proof.Gen.Kernel.Points
import proofs.«160225_j47562467836271_2_alg».proof.Proof.Gen.Kernel.Frame
import proofs.«160225_j47562467836271_2_alg».proof.Proof.Gen.KernelIdeal
import proofs.«160225_j47562467836271_2_alg».proof.Proof.Gen.KernelIdeal.Skeleton
import proofs.«160225_j47562467836271_2_alg».proof.Proof.Gen.KernelIdeal.Launch
import proofs.«160225_j47562467836271_2_alg».proof.Proof.Gen.KernelIdeal.Points
import proofs.«160225_j47562467836271_2_alg».proof.Proof.Gen.KernelIdeal.Frame
import proofs.«160225_j47562467836271_2_alg».proof.Proof.Gen.ReferenceIdeal
import proofs.«160225_j47562467836271_2_alg».proof.Proof.Gen.Pre_finite_inputs
import proofs.«160225_j47562467836271_2_alg».proof.Proof.Gen.KernelIdeal.Value
import proofs.«160225_j47562467836271_2_alg».proof.Proof.Gen.ReferenceIdeal.Run
import proofs.«160225_j47562467836271_2_alg».proof.Proof.Gen.ReferenceIdeal.Read
import proofs.«160225_j47562467836271_2_alg».proof.Proof.KernelArray
import proofs.«160225_j47562467836271_2_alg».proof.Proof.RefValue
import Idealize.ShloMosaic.Adequacy
import Idealize.ShloMosaic.Init

noncomputable section

namespace Cert.Proof

open Idealize.ShloMosaic Idealize.SL.Sem

/-- The word-level kernel terminates without a fault and leaves its three arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Reading the kernel on the extended reals rewrote no operation. -/
theorem preserves : Cert.preserves_Kernel_KernelIdeal := trivial

/-- From memories that agree on the three arguments the kernel ends with its results at the normalised array and
    the hidden-state array of the arguments, and the reference's two results are the same two functions. -/
theorem algebraic : Cert.algebraic_KernelIdeal_ReferenceIdeal := by
  intro m ρ m' ρ' _ hagree
  refine ⟨fun c => Cert.KernelIdeal.Arrays.normG m c, fun c => Cert.KernelIdeal.Arrays.hiddenG m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2]
    exact (Cert.ReferenceIdeal.Read.val_main_v14_eq _ _ _).trans (Cert.ReferenceIdeal.RefValue.norm_eq _ _ _)
  · rw [(hagree c).1, (hagree c).2.1]
    exact (Cert.ReferenceIdeal.Read.val_main_v1_eq _ _).trans (Cert.ReferenceIdeal.RefValue.hidden_eq _ _)

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
